-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x128x128x128 : Shape := ⟨5, ![4, 3, 128, 128, 128]⟩
abbrev S_ : Shape := ⟨0, ![]⟩

class Facts : Prop where
  bcast_S_S4x3x128x128x128 : S_.BroadcastsInDim S4x3x128x128x128 (![] : Fin 0 → Fin S4x3x128x128x128.rank)
  reducesTo_S4x3x128x128x128_S_d0_1_2_3_4 : S4x3x128x128x128.ReducesTo [0, 1, 2, 3, 4] S_
  h_S_ : 0 < S_.numel

variable [Facts]

def fn {F : FTy → Type} [FloatOps F] (main_arg0 : FVec F S4x3x128x128x128 .f32) : IVec S_ 1 :=
  let main_v0 : FVec F S4x3x128x128x128 .f32 := Host.absf main_arg0
  let main_cst : FVec F S_ .f32 := constant S_ .f32 0x7F800000#32
  let main_v1 : FVec F S4x3x128x128x128 .f32 := broadcastInDim S4x3x128x128x128 ![] bcast_S_S4x3x128x128x128 main_cst
  let main_v2 : IVec S4x3x128x128x128 1 := cmpf .olt main_v0 main_v1
  let main_c : IVec S_ 1 := constantI S_ 1 1#1
  let main_v3 : IVec S_ 1 := (fun x v => Host.reduce IntOp.andi x v reducesTo_S4x3x128x128x128_S_d0_1_2_3_4 h_S_) main_v2 main_c
  main_v3
-- ==== Kernel.lean ====
abbrev S4x3x128x128x128 : Shape := ⟨5, ![4, 3, 128, 128, 128]⟩
abbrev S12x128x128x128 : Shape := ⟨4, ![12, 128, 128, 128]⟩
abbrev S12x1x1 : Shape := ⟨3, ![12, 1, 1]⟩
abbrev S1x128x128x128 : Shape := ⟨4, ![1, 128, 128, 128]⟩
abbrev S1x1x1 : Shape := ⟨3, ![1, 1, 1]⟩
abbrev S128x128 : Shape := ⟨2, ![128, 128]⟩
abbrev S1x1x128x128 : Shape := ⟨4, ![1, 1, 128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S4x3x128x128x128, .f32⟩
  | .hbm, ⟨1, _⟩ => ⟨S12x128x128x128, .f32⟩
  | .hbm, ⟨2, _⟩ => ⟨S12x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x128x128x128, .f32⟩
  | .local _ .vmem, ⟨1, _⟩ => ⟨S1x128x128x128, .f32⟩
  | .local _ .vmem, ⟨2, _⟩ => ⟨S1x1x1, .f32⟩
  | .local _ .vmem, ⟨3, _⟩ => ⟨S1x1x1, .f32⟩
  | _, _ => ⟨S4x3x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x3x128x128x128_S12x128x128x128 : S4x3x128x128x128.ShapeCasts S12x128x128x128
  iota_S128x128_d0_w32 : S128x128.Iotas .tc 32 [0]
  iota_S128x128_d1_w32 : S128x128.Iotas .tc 32 [1]
  inb_S1x128x128x128_S1x1x128x128_0_0_0_0 : ∀ a, (![0, 0, 0, 0] : Fin 4 → Nat) a + S1x1x128x128.size a ≤ S1x128x128x128.size a
  h_S1x1x128x128 : 0 < S1x1x128x128.numel
  shapeCasts_S1x1x128x128_S128x128 : S1x1x128x128.ShapeCasts S128x128
  inb_S1x128x128x128_S1x1x128x128_0_1_0_0 : ∀ a, (![0, 1, 0, 0] : Fin 4 → Nat) a + S1x1x128x128.size a ≤ S1x128x128x128.size a
  rotates_S128x128_d0 : S128x128.Rotates 0 none
  rotates_S128x128_d1 : S128x128.Rotates 1 none
  inb_S1x128x128x128_S1x1x128x128_0_2_0_0 : ∀ a, (![0, 2, 0, 0] : Fin 4 → Nat) a + S1x1x128x128.size a ≤ S1x128x128x128.size a
  inb_S1x128x128x128_S1x1x128x128_0_3_0_0 : ∀ a, (![0, 3, 0, 0] : Fin 4 → Nat) a + S1x1x128x128.size a ≤ S1x128x128x128.size a
  inb_S1x128x128x128_S1x1x128x128_0_4_0_0 : ∀ a, (![0, 4, 0, 0] : Fin 4 → Nat) a + S1x1x128x128.size a ≤ S1x128x128x128.size a
  inb_S1x128x128x128_S1x1x128x128_0_5_0_0 : ∀ a, (![0, 5, 0, 0] : Fin 4 → Nat) a + S1x1x128x128.size a ≤ S1x128x128x128.size a
  inb_S1x128x128x128_S1x1x128x128_0_6_0_0 : ∀ a, (![0, 6, 0, 0] : Fin 4 → Nat) a + S1x1x128x128.size a ≤ S1x128x128x128.size a
  inb_S1x128x128x128_S1x1x128x128_0_7_0_0 : ∀ a, (![0, 7, 0, 0] : Fin 4 → Nat) a + S1x1x128x128.size a ≤ S1x128x128x128.size a
  inb_S1x128x128x128_S1x1x128x128_0_8_0_0 : ∀ a, (![0, 8, 0, 0] : Fin 4 → Nat) a + S1x1x128x128.size a ≤ S1x128x128x128.size a
  inb_S1x128x128x128_S1x1x128x128_0_9_0_0 : ∀ a, (![0, 9, 0, 0] : Fin 4 → Nat) a + S1x1x128x128.size a ≤ S1x128x128x128.size a
  inb_S1x128x128x128_S1x1x128x128_0_10_0_0 : ∀ a, (![0, 10, 0, 0] : Fin 4 → Nat) a + S1x1x128x128.size a ≤ S1x128x128x128.size a
  inb_S1x128x128x128_S1x1x128x128_0_11_0_0 : ∀ a, (![0, 11, 0, 0] : Fin 4 → Nat) a + S1x1x128x128.size a ≤ S1x128x128x128.size a
  inb_S1x128x128x128_S1x1x128x128_0_12_0_0 : ∀ a, (![0, 12, 0, 0] : Fin 4 → Nat) a + S1x1x128x128.size a ≤ S1x128x128x128.size a
  inb_S1x128x128x128_S1x1x128x128_0_13_0_0 : ∀ a, (![0, 13, 0, 0] : Fin 4 → Nat) a + S1x1x128x128.size a ≤ S1x128x128x128.size a
  inb_S1x128x128x128_S1x1x128x128_0_14_0_0 : ∀ a, (![0, 14, 0, 0] : Fin 4 → Nat) a + S1x1x128x128.size a ≤ S1x128x128x128.size a
  inb_S1x128x128x128_S1x1x128x128_0_15_0_0 : ∀ a, (![0, 15, 0, 0] : Fin 4 → Nat) a + S1x1x128x128.size a ≤ S1x128x128x128.size a
  inb_S1x128x128x128_S1x1x128x128_0_16_0_0 : ∀ a, (![0, 16, 0, 0] : Fin 4 → Nat) a + S1x1x128x128.size a ≤ S1x128x128x128.size a
  inb_S1x128x128x128_S1x1x128x128_0_17_0_0 : ∀ a, (![0, 17, 0, 0] : Fin 4 → Nat) a + S1x1x128x128.size a ≤ S1x128x128x128.size a
  inb_S1x128x128x128_S1x1x128x128_0_18_0_0 : ∀ a, (![0, 18, 0, 0] : Fin 4 → Nat) a + S1x1x128x128.size a ≤ S1x128x128x128.size a
  inb_S1x128x128x128_S1x1x128x128_0_19_0_0 : ∀ a, (![0, 19, 0, 0] : Fin 4 → Nat) a + S1x1x128x128.size a ≤ S1x128x128x128.size a
  inb_S1x128x128x128_S1x1x128x128_0_20_0_0 : ∀ a, (![0, 20, 0, 0] : Fin 4 → Nat) a + S1x1x128x128.size a ≤ S1x128x128x128.size a
  inb_S1x128x128x128_S1x1x128x128_0_21_0_0 : ∀ a, (![0, 21, 0, 0] : Fin 4 → Nat) a + S1x1x128x128.size a ≤ S1x128x128x128.size a
  inb_S1x128x128x128_S1x1x128x128_0_22_0_0 : ∀ a, (![0, 22, 0, 0] : Fin 4 → Nat) a + S1x1x128x128.size a ≤ S1x128x128x128.size a
  inb_S1x128x128x128_S1x1x128x128_0_23_0_0 : ∀ a, (![0, 23, 0, 0] : Fin 4 → Nat) a + S1x1x128x128.size a ≤ S1x128x128x128.size a
  inb_S1x128x128x128_S1x1x128x128_0_24_0_0 : ∀ a, (![0, 24, 0, 0] : Fin 4 → Nat) a + S1x1x128x128.size a ≤ S1x128x128x128.size a
  inb_S1x128x128x128_S1x1x128x128_0_25_0_0 : ∀ a, (![0, 25, 0, 0] : Fin 4 → Nat) a + S1x1x128x128.size a ≤ S1x128x128x128.size a
  inb_S1x128x128x128_S1x1x128x128_0_26_0_0 : ∀ a, (![0, 26, 0, 0] : Fin 4 → Nat) a + S1x1x128x128.size a ≤ S1x128x128x128.size a
  inb_S1x128x128x128_S1x1x128x128_0_27_0_0 : ∀ a, (![0, 27, 0, 0] : Fin 4 → Nat) a + S1x1x128x128.size a ≤ S1x128x128x128.size a
  inb_S1x128x128x128_S1x1x128x128_0_28_0_0 : ∀ a, (![0, 28, 0, 0] : Fin 4 → Nat) a + S1x1x128x128.size a ≤ S1x128x128x128.size a
  inb_S1x128x128x128_S1x1x128x128_0_29_0_0 : ∀ a, (![0, 29, 0, 0] : Fin 4 → Nat) a + S1x1x128x128.size a ≤ S1x128x128x128.size a
  inb_S1x128x128x128_S1x1x128x128_0_30_0_0 : ∀ a, (![0, 30, 0, 0] : Fin 4 → Nat) a + S1x1x128x128.size a ≤ S1x128x128x128.size a
  inb_S1x128x128x128_S1x1x128x128_0_31_0_0 : ∀ a, (![0, 31, 0, 0] : Fin 4 → Nat) a + S1x1x128x128.size a ≤ S1x128x128x128.size a
  inb_S1x128x128x128_S1x1x128x128_0_32_0_0 : ∀ a, (![0, 32, 0, 0] : Fin 4 → Nat) a + S1x1x128x128.size a ≤ S1x128x128x128.size a
  inb_S1x128x128x128_S1x1x128x128_0_33_0_0 : ∀ a, (![0, 33, 0, 0] : Fin 4 → Nat) a + S1x1x128x128.size a ≤ S1x128x128x128.size a
  inb_S1x128x128x128_S1x1x128x128_0_34_0_0 : ∀ a, (![0, 34, 0, 0] : Fin 4 → Nat) a + S1x1x128x128.size a ≤ S1x128x128x128.size a
  inb_S1x128x128x128_S1x1x128x128_0_35_0_0 : ∀ a, (![0, 35, 0, 0] : Fin 4 → Nat) a + S1x1x128x128.size a ≤ S1x128x128x128.size a
  inb_S1x128x128x128_S1x1x128x128_0_36_0_0 : ∀ a, (![0, 36, 0, 0] : Fin 4 → Nat) a + S1x1x128x128.size a ≤ S1x128x128x128.size a
  inb_S1x128x128x128_S1x1x128x128_0_37_0_0 : ∀ a, (![0, 37, 0, 0] : Fin 4 → Nat) a + S1x1x128x128.size a ≤ S1x128x128x128.size a
  inb_S1x128x128x128_S1x1x128x128_0_38_0_0 : ∀ a, (![0, 38, 0, 0] : Fin 4 → Nat) a + S1x1x128x128.size a ≤ S1x128x128x128.size a
  inb_S1x128x128x128_S1x1x128x128_0_39_0_0 : ∀ a, (![0, 39, 0, 0] : Fin 4 → Nat) a + S1x1x128x128.size a ≤ S1x128x128x128.size a
  inb_S1x128x128x128_S1x1x128x128_0_40_0_0 : ∀ a, (![0, 40, 0, 0] : Fin 4 → Nat) a + S1x1x128x128.size a ≤ S1x128x128x128.size a
  inb_S1x128x128x128_S1x1x128x128_0_41_0_0 : ∀ a, (![0, 41, 0, 0] : Fin 4 → Nat) a + S1x1x128x128.size a ≤ S1x128x128x128.size a
  inb_S1x128x128x128_S1x1x128x128_0_42_0_0 : ∀ a, (![0, 42, 0, 0] : Fin 4 → Nat) a + S1x1x128x128.size a ≤ S1x128x128x128.size a
  inb_S1x128x128x128_S1x1x128x128_0_43_0_0 : ∀ a, (![0, 43, 0, 0] : Fin 4 → Nat) a + S1x1x128x128.size a ≤ S1x128x128x128.size a
  inb_S1x128x128x128_S1x1x128x128_0_44_0_0 : ∀ a, (![0, 44, 0, 0] : Fin 4 → Nat) a + S1x1x128x128.size a ≤ S1x128x128x128.size a
  inb_S1x128x128x128_S1x1x128x128_0_45_0_0 : ∀ a, (![0, 45, 0, 0] : Fin 4 → Nat) a + S1x1x128x128.size a ≤ S1x128x128x128.size a
  inb_S1x128x128x128_S1x1x128x128_0_46_0_0 : ∀ a, (![0, 46, 0, 0] : Fin 4 → Nat) a + S1x1x128x128.size a ≤ S1x128x128x128.size a
  inb_S1x128x128x128_S1x1x128x128_0_47_0_0 : ∀ a, (![0, 47, 0, 0] : Fin 4 → Nat) a + S1x1x128x128.size a ≤ S1x128x128x128.size a
  inb_S1x128x128x128_S1x1x128x128_0_48_0_0 : ∀ a, (![0, 48, 0, 0] : Fin 4 → Nat) a + S1x1x128x128.size a ≤ S1x128x128x128.size a
  inb_S1x128x128x128_S1x1x128x128_0_49_0_0 : ∀ a, (![0, 49, 0, 0] : Fin 4 → Nat) a + S1x1x128x128.size a ≤ S1x128x128x128.size a
  inb_S1x128x128x128_S1x1x128x128_0_50_0_0 : ∀ a, (![0, 50, 0, 0] : Fin 4 → Nat) a + S1x1x128x128.size a ≤ S1x128x128x128.size a
  inb_S1x128x128x128_S1x1x128x128_0_51_0_0 : ∀ a, (![0, 51, 0, 0] : Fin 4 → Nat) a + S1x1x128x128.size a ≤ S1x128x128x128.size a
  inb_S1x128x128x128_S1x1x128x128_0_52_0_0 : ∀ a, (![0, 52, 0, 0] : Fin 4 → Nat) a + S1x1x128x128.size a ≤ S1x128x128x128.size a
  inb_S1x128x128x128_S1x1x128x128_0_53_0_0 : ∀ a, (![0, 53, 0, 0] : Fin 4 → Nat) a + S1x1x128x128.size a ≤ S1x128x128x128.size a
  inb_S1x128x128x128_S1x1x128x128_0_54_0_0 : ∀ a, (![0, 54, 0, 0] : Fin 4 → Nat) a + S1x1x128x128.size a ≤ S1x128x128x128.size a
  inb_S1x128x128x128_S1x1x128x128_0_55_0_0 : ∀ a, (![0, 55, 0, 0] : Fin 4 → Nat) a + S1x1x128x128.size a ≤ S1x128x128x128.size a
  inb_S1x128x128x128_S1x1x128x128_0_56_0_0 : ∀ a, (![0, 56, 0, 0] : Fin 4 → Nat) a + S1x1x128x128.size a ≤ S1x128x128x128.size a
  inb_S1x128x128x128_S1x1x128x128_0_57_0_0 : ∀ a, (![0, 57, 0, 0] : Fin 4 → Nat) a + S1x1x128x128.size a ≤ S1x128x128x128.size a
  inb_S1x128x128x128_S1x1x128x128_0_58_0_0 : ∀ a, (![0, 58, 0, 0] : Fin 4 → Nat) a + S1x1x128x128.size a ≤ S1x128x128x128.size a
  inb_S1x128x128x128_S1x1x128x128_0_59_0_0 : ∀ a, (![0, 59, 0, 0] : Fin 4 → Nat) a + S1x1x128x128.size a ≤ S1x128x128x128.size a
  inb_S1x128x128x128_S1x1x128x128_0_60_0_0 : ∀ a, (![0, 60, 0, 0] : Fin 4 → Nat) a + S1x1x128x128.size a ≤ S1x128x128x128.size a
  inb_S1x128x128x128_S1x1x128x128_0_61_0_0 : ∀ a, (![0, 61, 0, 0] : Fin 4 → Nat) a + S1x1x128x128.size a ≤ S1x128x128x128.size a
  inb_S1x128x128x128_S1x1x128x128_0_62_0_0 : ∀ a, (![0, 62, 0, 0] : Fin 4 → Nat) a + S1x1x128x128.size a ≤ S1x128x128x128.size a
  inb_S1x128x128x128_S1x1x128x128_0_63_0_0 : ∀ a, (![0, 63, 0, 0] : Fin 4 → Nat) a + S1x1x128x128.size a ≤ S1x128x128x128.size a
  inb_S1x128x128x128_S1x1x128x128_0_64_0_0 : ∀ a, (![0, 64, 0, 0] : Fin 4 → Nat) a + S1x1x128x128.size a ≤ S1x128x128x128.size a
  inb_S1x128x128x128_S1x1x128x128_0_65_0_0 : ∀ a, (![0, 65, 0, 0] : Fin 4 → Nat) a + S1x1x128x128.size a ≤ S1x128x128x128.size a
  inb_S1x128x128x128_S1x1x128x128_0_66_0_0 : ∀ a, (![0, 66, 0, 0] : Fin 4 → Nat) a + S1x1x128x128.size a ≤ S1x128x128x128.size a
  inb_S1x128x128x128_S1x1x128x128_0_67_0_0 : ∀ a, (![0, 67, 0, 0] : Fin 4 → Nat) a + S1x1x128x128.size a ≤ S1x128x128x128.size a
  inb_S1x128x128x128_S1x1x128x128_0_68_0_0 : ∀ a, (![0, 68, 0, 0] : Fin 4 → Nat) a + S1x1x128x128.size a ≤ S1x128x128x128.size a
  inb_S1x128x128x128_S1x1x128x128_0_69_0_0 : ∀ a, (![0, 69, 0, 0] : Fin 4 → Nat) a + S1x1x128x128.size a ≤ S1x128x128x128.size a
  inb_S1x128x128x128_S1x1x128x128_0_70_0_0 : ∀ a, (![0, 70, 0, 0] : Fin 4 → Nat) a + S1x1x128x128.size a ≤ S1x128x128x128.size a
  inb_S1x128x128x128_S1x1x128x128_0_71_0_0 : ∀ a, (![0, 71, 0, 0] : Fin 4 → Nat) a + S1x1x128x128.size a ≤ S1x128x128x128.size a
  inb_S1x128x128x128_S1x1x128x128_0_72_0_0 : ∀ a, (![0, 72, 0, 0] : Fin 4 → Nat) a + S1x1x128x128.size a ≤ S1x128x128x128.size a
  inb_S1x128x128x128_S1x1x128x128_0_73_0_0 : ∀ a, (![0, 73, 0, 0] : Fin 4 → Nat) a + S1x1x128x128.size a ≤ S1x128x128x128.size a
  inb_S1x128x128x128_S1x1x128x128_0_74_0_0 : ∀ a, (![0, 74, 0, 0] : Fin 4 → Nat) a + S1x1x128x128.size a ≤ S1x128x128x128.size a
  inb_S1x128x128x128_S1x1x128x128_0_75_0_0 : ∀ a, (![0, 75, 0, 0] : Fin 4 → Nat) a + S1x1x128x128.size a ≤ S1x128x128x128.size a
  inb_S1x128x128x128_S1x1x128x128_0_76_0_0 : ∀ a, (![0, 76, 0, 0] : Fin 4 → Nat) a + S1x1x128x128.size a ≤ S1x128x128x128.size a
  inb_S1x128x128x128_S1x1x128x128_0_77_0_0 : ∀ a, (![0, 77, 0, 0] : Fin 4 → Nat) a + S1x1x128x128.size a ≤ S1x128x128x128.size a
  inb_S1x128x128x128_S1x1x128x128_0_78_0_0 : ∀ a, (![0, 78, 0, 0] : Fin 4 → Nat) a + S1x1x128x128.size a ≤ S1x128x128x128.size a
  inb_S1x128x128x128_S1x1x128x128_0_79_0_0 : ∀ a, (![0, 79, 0, 0] : Fin 4 → Nat) a + S1x1x128x128.size a ≤ S1x128x128x128.size a
  inb_S1x128x128x128_S1x1x128x128_0_80_0_0 : ∀ a, (![0, 80, 0, 0] : Fin 4 → Nat) a + S1x1x128x128.size a ≤ S1x128x128x128.size a
  inb_S1x128x128x128_S1x1x128x128_0_81_0_0 : ∀ a, (![0, 81, 0, 0] : Fin 4 → Nat) a + S1x1x128x128.size a ≤ S1x128x128x128.size a
  inb_S1x128x128x128_S1x1x128x128_0_82_0_0 : ∀ a, (![0, 82, 0, 0] : Fin 4 → Nat) a + S1x1x128x128.size a ≤ S1x128x128x128.size a
  inb_S1x128x128x128_S1x1x128x128_0_83_0_0 : ∀ a, (![0, 83, 0, 0] : Fin 4 → Nat) a + S1x1x128x128.size a ≤ S1x128x128x128.size a
  inb_S1x128x128x128_S1x1x128x128_0_84_0_0 : ∀ a, (![0, 84, 0, 0] : Fin 4 → Nat) a + S1x1x128x128.size a ≤ S1x128x128x128.size a
  inb_S1x128x128x128_S1x1x128x128_0_85_0_0 : ∀ a, (![0, 85, 0, 0] : Fin 4 → Nat) a + S1x1x128x128.size a ≤ S1x128x128x128.size a
  inb_S1x128x128x128_S1x1x128x128_0_86_0_0 : ∀ a, (![0, 86, 0, 0] : Fin 4 → Nat) a + S1x1x128x128.size a ≤ S1x128x128x128.size a
  inb_S1x128x128x128_S1x1x128x128_0_87_0_0 : ∀ a, (![0, 87, 0, 0] : Fin 4 → Nat) a + S1x1x128x128.size a ≤ S1x128x128x128.size a
  inb_S1x128x128x128_S1x1x128x128_0_88_0_0 : ∀ a, (![0, 88, 0, 0] : Fin 4 → Nat) a + S1x1x128x128.size a ≤ S1x128x128x128.size a
  inb_S1x128x128x128_S1x1x128x128_0_89_0_0 : ∀ a, (![0, 89, 0, 0] : Fin 4 → Nat) a + S1x1x128x128.size a ≤ S1x128x128x128.size a
  inb_S1x128x128x128_S1x1x128x128_0_90_0_0 : ∀ a, (![0, 90, 0, 0] : Fin 4 → Nat) a + S1x1x128x128.size a ≤ S1x128x128x128.size a
  inb_S1x128x128x128_S1x1x128x128_0_91_0_0 : ∀ a, (![0, 91, 0, 0] : Fin 4 → Nat) a + S1x1x128x128.size a ≤ S1x128x128x128.size a
  inb_S1x128x128x128_S1x1x128x128_0_92_0_0 : ∀ a, (![0, 92, 0, 0] : Fin 4 → Nat) a + S1x1x128x128.size a ≤ S1x128x128x128.size a
  inb_S1x128x128x128_S1x1x128x128_0_93_0_0 : ∀ a, (![0, 93, 0, 0] : Fin 4 → Nat) a + S1x1x128x128.size a ≤ S1x128x128x128.size a
  inb_S1x128x128x128_S1x1x128x128_0_94_0_0 : ∀ a, (![0, 94, 0, 0] : Fin 4 → Nat) a + S1x1x128x128.size a ≤ S1x128x128x128.size a
  inb_S1x128x128x128_S1x1x128x128_0_95_0_0 : ∀ a, (![0, 95, 0, 0] : Fin 4 → Nat) a + S1x1x128x128.size a ≤ S1x128x128x128.size a
  inb_S1x128x128x128_S1x1x128x128_0_96_0_0 : ∀ a, (![0, 96, 0, 0] : Fin 4 → Nat) a + S1x1x128x128.size a ≤ S1x128x128x128.size a
  inb_S1x128x128x128_S1x1x128x128_0_97_0_0 : ∀ a, (![0, 97, 0, 0] : Fin 4 → Nat) a + S1x1x128x128.size a ≤ S1x128x128x128.size a
  inb_S1x128x128x128_S1x1x128x128_0_98_0_0 : ∀ a, (![0, 98, 0, 0] : Fin 4 → Nat) a + S1x1x128x128.size a ≤ S1x128x128x128.size a
  inb_S1x128x128x128_S1x1x128x128_0_99_0_0 : ∀ a, (![0, 99, 0, 0] : Fin 4 → Nat) a + S1x1x128x128.size a ≤ S1x128x128x128.size a
  inb_S1x128x128x128_S1x1x128x128_0_100_0_0 : ∀ a, (![0, 100, 0, 0] : Fin 4 → Nat) a + S1x1x128x128.size a ≤ S1x128x128x128.size a
  inb_S1x128x128x128_S1x1x128x128_0_101_0_0 : ∀ a, (![0, 101, 0, 0] : Fin 4 → Nat) a + S1x1x128x128.size a ≤ S1x128x128x128.size a
  inb_S1x128x128x128_S1x1x128x128_0_102_0_0 : ∀ a, (![0, 102, 0, 0] : Fin 4 → Nat) a + S1x1x128x128.size a ≤ S1x128x128x128.size a
  inb_S1x128x128x128_S1x1x128x128_0_103_0_0 : ∀ a, (![0, 103, 0, 0] : Fin 4 → Nat) a + S1x1x128x128.size a ≤ S1x128x128x128.size a
  inb_S1x128x128x128_S1x1x128x128_0_104_0_0 : ∀ a, (![0, 104, 0, 0] : Fin 4 → Nat) a + S1x1x128x128.size a ≤ S1x128x128x128.size a
  inb_S1x128x128x128_S1x1x128x128_0_105_0_0 : ∀ a, (![0, 105, 0, 0] : Fin 4 → Nat) a + S1x1x128x128.size a ≤ S1x128x128x128.size a
  inb_S1x128x128x128_S1x1x128x128_0_106_0_0 : ∀ a, (![0, 106, 0, 0] : Fin 4 → Nat) a + S1x1x128x128.size a ≤ S1x128x128x128.size a
  inb_S1x128x128x128_S1x1x128x128_0_107_0_0 : ∀ a, (![0, 107, 0, 0] : Fin 4 → Nat) a + S1x1x128x128.size a ≤ S1x128x128x128.size a
  inb_S1x128x128x128_S1x1x128x128_0_108_0_0 : ∀ a, (![0, 108, 0, 0] : Fin 4 → Nat) a + S1x1x128x128.size a ≤ S1x128x128x128.size a
  inb_S1x128x128x128_S1x1x128x128_0_109_0_0 : ∀ a, (![0, 109, 0, 0] : Fin 4 → Nat) a + S1x1x128x128.size a ≤ S1x128x128x128.size a
  inb_S1x128x128x128_S1x1x128x128_0_110_0_0 : ∀ a, (![0, 110, 0, 0] : Fin 4 → Nat) a + S1x1x128x128.size a ≤ S1x128x128x128.size a
  inb_S1x128x128x128_S1x1x128x128_0_111_0_0 : ∀ a, (![0, 111, 0, 0] : Fin 4 → Nat) a + S1x1x128x128.size a ≤ S1x128x128x128.size a
  inb_S1x128x128x128_S1x1x128x128_0_112_0_0 : ∀ a, (![0, 112, 0, 0] : Fin 4 → Nat) a + S1x1x128x128.size a ≤ S1x128x128x128.size a
  inb_S1x128x128x128_S1x1x128x128_0_113_0_0 : ∀ a, (![0, 113, 0, 0] : Fin 4 → Nat) a + S1x1x128x128.size a ≤ S1x128x128x128.size a
  inb_S1x128x128x128_S1x1x128x128_0_114_0_0 : ∀ a, (![0, 114, 0, 0] : Fin 4 → Nat) a + S1x1x128x128.size a ≤ S1x128x128x128.size a
  inb_S1x128x128x128_S1x1x128x128_0_115_0_0 : ∀ a, (![0, 115, 0, 0] : Fin 4 → Nat) a + S1x1x128x128.size a ≤ S1x128x128x128.size a
  inb_S1x128x128x128_S1x1x128x128_0_116_0_0 : ∀ a, (![0, 116, 0, 0] : Fin 4 → Nat) a + S1x1x128x128.size a ≤ S1x128x128x128.size a
  inb_S1x128x128x128_S1x1x128x128_0_117_0_0 : ∀ a, (![0, 117, 0, 0] : Fin 4 → Nat) a + S1x1x128x128.size a ≤ S1x128x128x128.size a
  inb_S1x128x128x128_S1x1x128x128_0_118_0_0 : ∀ a, (![0, 118, 0, 0] : Fin 4 → Nat) a + S1x1x128x128.size a ≤ S1x128x128x128.size a
  inb_S1x128x128x128_S1x1x128x128_0_119_0_0 : ∀ a, (![0, 119, 0, 0] : Fin 4 → Nat) a + S1x1x128x128.size a ≤ S1x128x128x128.size a
  inb_S1x128x128x128_S1x1x128x128_0_120_0_0 : ∀ a, (![0, 120, 0, 0] : Fin 4 → Nat) a + S1x1x128x128.size a ≤ S1x128x128x128.size a
  inb_S1x128x128x128_S1x1x128x128_0_121_0_0 : ∀ a, (![0, 121, 0, 0] : Fin 4 → Nat) a + S1x1x128x128.size a ≤ S1x128x128x128.size a
  inb_S1x128x128x128_S1x1x128x128_0_122_0_0 : ∀ a, (![0, 122, 0, 0] : Fin 4 → Nat) a + S1x1x128x128.size a ≤ S1x128x128x128.size a
  inb_S1x128x128x128_S1x1x128x128_0_123_0_0 : ∀ a, (![0, 123, 0, 0] : Fin 4 → Nat) a + S1x1x128x128.size a ≤ S1x128x128x128.size a
  inb_S1x128x128x128_S1x1x128x128_0_124_0_0 : ∀ a, (![0, 124, 0, 0] : Fin 4 → Nat) a + S1x1x128x128.size a ≤ S1x128x128x128.size a
  inb_S1x128x128x128_S1x1x128x128_0_125_0_0 : ∀ a, (![0, 125, 0, 0] : Fin 4 → Nat) a + S1x1x128x128.size a ≤ S1x128x128x128.size a
  inb_S1x128x128x128_S1x1x128x128_0_126_0_0 : ∀ a, (![0, 126, 0, 0] : Fin 4 → Nat) a + S1x1x128x128.size a ≤ S1x128x128x128.size a
  inb_S1x128x128x128_S1x1x128x128_0_127_0_0 : ∀ a, (![0, 127, 0, 0] : Fin 4 → Nat) a + S1x1x128x128.size a ≤ S1x128x128x128.size a
  reduces_S128x128_S128 : S128x128.Reduces [0] S128
  shapeCasts_S128_S1x128 : S128.ShapeCasts S1x128
  reduces_S1x128_S1 : S1x128.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S12x1x1_S_d0_1_2 : S12x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S12x128x128x128.size a
  hwx0_0 : ∀ i : grid0.Coords, EltTy.bits .f32 = 32 ∨ (Rect.block (s := S12x128x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S12x1x1.size a
  hwx0_1 : ∀ i : grid0.Coords, EltTy.bits .f32 = 32 ∨ (Rect.block (s := S12x1x1) S1x1x1.size (cc0_transform_1 i) (hinb0_1 i)).WholeWords (EltTy.packing .f32)

variable [Facts₀]

abbrev win0_0 : Pipeline.Window sig grid0 :=
  Pipeline.Window.ofSpec (Memref.whole main_v0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x3x128x128x128 : Shape := ⟨5, ![4, 3, 128, 128, 128]⟩
abbrev S4x3x127x127x127 : Shape := ⟨5, ![4, 3, 127, 127, 127]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x3x128x128x128, .f32⟩
  | .hbm, ⟨1, _⟩ => ⟨S4x3x127x127x127, .f32⟩
  | .hbm, ⟨2, _⟩ => ⟨S4x3x127x127x127, .f32⟩
  | .hbm, ⟨3, _⟩ => ⟨S4x3x127x127x127, .f32⟩
  | .hbm, ⟨4, _⟩ => ⟨S4x3x127x127x127, .f32⟩
  | .hbm, ⟨5, _⟩ => ⟨S4x3x127x127x127, .f32⟩
  | .hbm, ⟨6, _⟩ => ⟨S4x3x127x127x127, .f32⟩
  | .hbm, ⟨7, _⟩ => ⟨S4x3x127x127x127, .f32⟩
  | .hbm, ⟨8, _⟩ => ⟨S4x3x127x127x127, .f32⟩
  | .hbm, ⟨9, _⟩ => ⟨S_, .f32⟩
  | .hbm, ⟨10, _⟩ => ⟨S_, .f32⟩
  | .hbm, ⟨11, _⟩ => ⟨S4x3x127x127x127, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x3x127x127x127, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S4x3x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  slices_S4x3x128x128x128_S4x3x127x127x127_0_0_0_0_0 : S4x3x128x128x128.Slices ![0, 0, 0, 0, 0] S4x3x127x127x127
  slices_S4x3x128x128x128_S4x3x127x127x127_0_0_1_0_0 : S4x3x128x128x128.Slices ![0, 0, 1, 0, 0] S4x3x127x127x127
  slices_S4x3x128x128x128_S4x3x127x127x127_0_0_0_1_0 : S4x3x128x128x128.Slices ![0, 0, 0, 1, 0] S4x3x127x127x127
  slices_S4x3x128x128x128_S4x3x127x127x127_0_0_0_0_1 : S4x3x128x128x128.Slices ![0, 0, 0, 0, 1] S4x3x127x127x127
  reducesTo_S4x3x127x127x127_S_d0_1_2_3_4 : S4x3x127x127x127.ReducesTo [0, 1, 2, 3, 4] S_
  h_S_ : 0 < S_.numel

variable [Facts₀]

class Facts : Prop extends Facts₀ where

variable [Facts]
-- ==== Proof.UnrolledBody.lean ====
/-
  The kernel body's loop over the leading axis of its block, read as a recursion.

  The body walks the 128 y–z planes of one [1,128,128,128] block.  At step i (0 ≤ i < 127) it forms, for the
  plane a = plane i and the next plane b = plane (i+1), the tile
      (b − a)² + (rot_y a − a)² + (rot_z a − a)²
  where rot_y / rot_z rotate a tile by 127 of its 128 rows / columns (entry j+1 comes to j, wrapping at the end), and
  adds it into one of two running tiles: the even steps into the first, the odd steps into the second, both started
  at the zero splat.  This file names those running tiles by recursion on the number of steps taken, and states
  that the block's stored value is the body's closing arithmetic applied to them.
-/
import proofs.«109598_g5583457484972_feedfinal_621_21_alg».proof.Proof.Gen.KernelIdeal.Frame

set_option maxRecDepth 16384

noncomputable section

namespace Cert.KernelIdeal.Unrolled

open Idealize.ShloMosaic Cert.KernelIdeal Cert.KernelIdeal.Gen

variable {F : FTy → Type} [FloatOps F]

/-- Plane `i` of the leading loop axis lies inside the block. -/
theorem inb_plane (i : Fin 128) :
    ∀ a, (![0, i.val, 0, 0] : Fin 4 → Nat) a + S1x1x128x128.size a ≤ S1x128x128x128.size a := by
  intro a
  have := i.isLt
  fin_cases a <;> simp <;> omega

/-- The y–z plane at position `i` of the block's leading loop axis, as a 128×128 tile. -/
def plane (x : Vec F S1x128x128x128 .f32) (i : Fin 128) : FVec F S128x128 .f32 :=
  shapeCast S128x128 (View.ld x (Rect.unit (s := S1x128x128x128) ![0, i.val, 0, 0] S1x1x128x128.size (inb_plane i)))
    shapeCasts_S1x1x128x128_S128x128

/-- The same with the position a natural number, read modulo 128. -/
def planeN (x : Vec F S1x128x128x128 .f32) (n : Nat) : FVec F S128x128 .f32 :=
  plane x ⟨n % 128, Nat.mod_lt _ (by decide)⟩

/-- One step's tile: the squared differences of tile `a` against the next tile `b` along x and against its own
    neighbours along y and z. -/
def sqDiffs (a b : FVec F S128x128 .f32) : FVec F S128x128 .f32 :=
  addf (addf (mulf (subf b a) (subf b a))
      (mulf (subf (dynamicRotate 0 127#32 none a rotates_S128x128_d0) a)
        (subf (dynamicRotate 0 127#32 none a rotates_S128x128_d0) a)))
    (mulf (subf (dynamicRotate 1 127#32 none a rotates_S128x128_d1) a)
      (subf (dynamicRotate 1 127#32 none a rotates_S128x128_d1) a))

/-- The first running tile after `n` even steps (steps 0, 2, …, 2n − 2). -/
def accEven (x : Vec F S1x128x128x128 .f32) : Nat → FVec F S128x128 .f32
  | 0 => broadcast S128x128 (Scalar.ofBits .f32 0x00000000#32)
  | n + 1 => addf (accEven x n) (sqDiffs (planeN x (2 * n)) (planeN x (2 * n + 1)))

/-- The second running tile after `n` odd steps (steps 1, 3, …, 2n − 1). -/
def accOdd (x : Vec F S1x128x128x128 .f32) : Nat → FVec F S128x128 .f32
  | 0 => broadcast S128x128 (Scalar.ofBits .f32 0x00000000#32)
  | n + 1 => addf (accOdd x n) (sqDiffs (planeN x (2 * n + 1)) (planeN x (2 * n + 2)))

set_option maxHeartbeats 4000000 in
/-- What the body leaves in the output block: its closing arithmetic (the last even step, the sum of the two running
    tiles, the mask and the two lane sums) applied to the running tiles after 63 even and 63 odd steps and to the last
    two planes.  Both sides are the same expression once the loop's 127 steps are written out. -/
theorem out_eq (x0 : Vec F S1x128x128x128 .f32) :
    out0_1 x0 = View.canon [⟨r0_128,
      k0_pay1 k0_pay2 (accEven x0 63) (planeN x0 126) (accOdd x0 63) (planeN x0 127)⟩] := by
  unfold out0_1
  rfl

end Cert.KernelIdeal.Unrolled

end
-- ==== Proof.TileRead.lean ====
/-
  The running tiles of the body's loop read at an index, on the extended reals.

  A plane of the block at (j, k) is the block's entry (0, i, j, k); a rotation by 127 of an axis of extent 128 reads
  the next entry along that axis, wrapping at the end; so a step's tile at (j, k) is the sum of the three squared
  forward differences of the block at (i, j, k), the y and z neighbours taken cyclically; and a running tile after
  n steps is the sum of its n step tiles (the zero splat it starts from is the extended real 0).
-/
import proofs.«109598_g5583457484972_feedfinal_621_21_alg».proof.Proof.UnrolledBody
import Idealize.ShloMosaic.Lib.ValueIdx
import Idealize.ShloMosaic.Lib.ValueIdxCoords
import Idealize.ShloMosaic.Lib.Pipeline.Value
import Idealize.ShloMosaic.Lib.KernelVsHost
import Idealize.ShloMosaic.PureOps.Ideal.Laws

set_option maxRecDepth 16384

noncomputable section

open scoped BigOperators

namespace Cert.KernelIdeal.TileRead

open Idealize.ShloMosaic Idealize.ShloMosaic.ValueIdx Cert.KernelIdeal Cert.KernelIdeal.Gen Cert.KernelIdeal.Unrolled

/-- Position `n` of the loop axis, read modulo 128. -/
abbrev pos (n : ℕ) : Fin 128 := ⟨n % 128, Nat.mod_lt _ (by decide)⟩

/-- A plane at (j, k) is the block at (0, n, j, k). -/
theorem planeN_apply (X : Vec Ideal S1x128x128x128 .f32) (n : ℕ) (j k : Fin 128) :
    planeN X n (ix2 j k) = X (ix4 (0 : Fin 1) (pos n) j k) := by
  unfold planeN plane
  refine (shapeCast_apply _ _ (ix2 j k) (ix4 (0 : Fin 1) (0 : Fin 1) j k) ?_).trans ?_
  · rw [Shape.rowMajor_val_four, Shape.rowMajor_val_two]
    show ((0 * 1 + 0) * 128 + j.val) * 128 + k.val = j.val * 128 + k.val
    omega
  · show X _ = X _
    refine congrArg X (funext fun a => Fin.ext ?_)
    match a with
    | ⟨0, _⟩ => rfl
    | ⟨1, _⟩ => rfl
    | ⟨2, _⟩ => show 0 + 1 * j.val = j.val; omega
    | ⟨3, _⟩ => show 0 + 1 * k.val = k.val; omega

/-- Rotating the rows by 127 of 128 brings row j+1 (cyclically) to row j. -/
theorem rotRows_apply {α : Type} (a : S128x128.Idx → α) (j k : Fin 128) :
    dynamicRotate 0 127#32 none a rotates_S128x128_d0 (ix2 j k) = a (ix2 (j + 1) k) :=
  dynamicRotate_apply 0 127#32 a rotates_S128x128_d0 (ix2 j k) (ix2 (j + 1) k) (fun b => by
    match b with
    | ⟨0, _⟩ =>
      show (j + 1).val = (j.val + 128 - 127 % 128) % 128
      rw [Fin.val_add]; show (j.val + 1 % 128) % 128 = _; omega
    | ⟨1, _⟩ => rfl)

/-- Rotating the columns by 127 of 128 brings column k+1 (cyclically) to column k. -/
theorem rotCols_apply {α : Type} (a : S128x128.Idx → α) (j k : Fin 128) :
    dynamicRotate 1 127#32 none a rotates_S128x128_d1 (ix2 j k) = a (ix2 j (k + 1)) :=
  dynamicRotate_apply 1 127#32 a rotates_S128x128_d1 (ix2 j k) (ix2 j (k + 1)) (fun b => by
    match b with
    | ⟨0, _⟩ => rfl
    | ⟨1, _⟩ =>
      show (k + 1).val = (k.val + 128 - 127 % 128) % 128
      rw [Fin.val_add]; show (k.val + 1 % 128) % 128 = _; omega)

/-- A step's tile at (j, k): the three squared forward differences there. -/
theorem sqDiffs_apply (a b : FVec Ideal S128x128 .f32) (j k : Fin 128) :
    sqDiffs a b (ix2 j k)
      = (b (ix2 j k) - a (ix2 j k)) * (b (ix2 j k) - a (ix2 j k))
        + (a (ix2 (j + 1) k) - a (ix2 j k)) * (a (ix2 (j + 1) k) - a (ix2 j k))
        + (a (ix2 j (k + 1)) - a (ix2 j k)) * (a (ix2 j (k + 1)) - a (ix2 j k)) := by
  unfold sqDiffs
  simp only [addf_apply, mulf_apply, subf_apply]
  rw [rotRows_apply a j k, rotCols_apply a j k]

/-- Step `n`'s tile at (j, k), as a function of the block. -/
def cell (X : Vec Ideal S1x128x128x128 .f32) (n : ℕ) (j k : Fin 128) : EReal :=
  sqDiffs (planeN X n) (planeN X (n + 1)) (ix2 j k)

/-- The first running tile after n even steps is the sum of those steps' tiles. -/
theorem accEven_apply (X : Vec Ideal S1x128x128x128 .f32) (n : ℕ) (j k : Fin 128) :
    accEven X n (ix2 j k) = ∑ m ∈ Finset.range n, cell X (2 * m) j k := by
  induction n with
  | zero =>
    rw [Finset.range_zero, Finset.sum_empty]
    exact Ideal.ofBits_zero_f32
  | succ n ih =>
    rw [Finset.sum_range_succ, ← ih]; rfl

/-- The second running tile after n odd steps is the sum of those steps' tiles. -/
theorem accOdd_apply (X : Vec Ideal S1x128x128x128 .f32) (n : ℕ) (j k : Fin 128) :
    accOdd X n (ix2 j k) = ∑ m ∈ Finset.range n, cell X (2 * m + 1) j k := by
  induction n with
  | zero =>
    rw [Finset.range_zero, Finset.sum_empty]
    exact Ideal.ofBits_zero_f32
  | succ n ih =>
    rw [Finset.sum_range_succ, ← ih]; rfl

/-! ## The mask and the closing arithmetic -/

/-- The body's mask at (j, k) is set exactly where both coordinates are below 127. -/
theorem mask_apply (j k : Fin 128) : k0_pay2 (ix2 j k) = if j.val < 127 ∧ k.val < 127 then 1#1 else 0#1 := by
  unfold k0_pay2
  show IntOp.andi (IntOp.cmpi .slt (iota .tc S128x128 32 [0] iota_S128x128_d0_w32 (ix2 j k)) 127#32)
      (IntOp.cmpi .slt (iota .tc S128x128 32 [1] iota_S128x128_d1_w32 (ix2 j k)) 127#32) = _
  rw [iota_single_apply, iota_single_apply]
  show IntOp.andi (IntOp.cmpi .slt (BitVec.ofNat 32 j.val) 127#32) (IntOp.cmpi .slt (BitVec.ofNat 32 k.val) 127#32) = _
  have hj := j.isLt
  have hk := k.isLt
  have e : ∀ n : ℕ, n < 128 → (IntOp.cmpi .slt (BitVec.ofNat 32 n) 127#32 = 1#1 ↔ n < 127) := fun n hn => by
    have hmod : n % 2 ^ 32 = n := Nat.mod_eq_of_lt (by omega)
    have h1 : (BitVec.ofNat 32 n).toInt = (n : ℤ) := by
      rw [BitVec.toInt_eq_toNat_cond, BitVec.toNat_ofNat, hmod, if_pos (by omega)]
    have h127 : (127#32 : BitVec 32).toInt = 127 := by decide
    rw [IntOp.cmpi_slt, h1, h127]
    omega
  by_cases h : j.val < 127 ∧ k.val < 127
  · rw [if_pos h]
    exact IntOp.andi_eq_one.2 ⟨(e _ hj).2 h.1, (e _ hk).2 h.2⟩
  · rw [if_neg h]
    exact eq_zero_of_ne_one fun h1 => h ⟨(e _ hj).1 (IntOp.andi_eq_one.1 h1).1, (e _ hk).1 (IntOp.andi_eq_one.1 h1).2⟩

/-- The closing arithmetic at the block's one index: with the last even step added to the first running tile and
    the two running tiles added, the masked tile is summed over its rows and then over its columns. -/
theorem closing_apply (v6 : IVec S128x128 1) (A B C D : FVec Ideal S128x128 .f32) (y : S1x1x1.Idx) :
    k0_pay1 v6 A B C D y
      = ∑ k : Fin 128, ∑ j : Fin 128,
          Scalar.select (v6 (ix2 j k)) (A (ix2 j k) + sqDiffs B D (ix2 j k) + C (ix2 j k)) 0 := by
  unfold k0_pay1
  refine (shapeCast_apply _ _ y (ix2 (0 : Fin 1) (0 : Fin 1)) ?_).trans ?_
  · rw [Shape.rowMajor_val_two, Shape.rowMajor_val_three]
    have h0 := (y 0).isLt; have h1 := (y 1).isLt; have h2 := (y 2).isLt
    show 0 * 1 + 0 = ((y 0).val * 1 + (y 1).val) * 1 + (y 2).val
    change (y 0).val < 1 at h0; change (y 1).val < 1 at h1; change (y 2).val < 1 at h2
    omega
  refine (shapeCast_apply _ _ (ix2 (0 : Fin 1) (0 : Fin 1)) (ix1 (0 : Fin 1)) ?_).trans ?_
  · rw [Shape.rowMajor_val_two, Shape.rowMajor_val_one]; rfl
  refine (Ideal.multiReduction_add_single _ _ reduces_S1x128_S1 _ _ (ix1 (0 : Fin 1))).trans ?_
  refine Finset.sum_congr rfl fun k _ => ?_
  refine (shapeCast_apply _ _ _ (ix1 k) ?_).trans ?_
  · rw [Shape.rowMajor_val_two, Shape.rowMajor_val_one]
    show k.val = 0 * 128 + k.val
    omega
  refine (Ideal.multiReduction_add_single _ _ reduces_S128x128_S128 _ _ (ix1 k)).trans ?_
  refine Finset.sum_congr rfl fun j _ => ?_
  have e : reduces_S128x128_S128.lift (ix1 k) j = ix2 j k := by
    funext a; match a with | ⟨0, _⟩ => rfl | ⟨1, _⟩ => rfl
  rw [e]
  show Scalar.select (v6 (ix2 j k)) _ (Ideal.ofBits .f32 0x00000000#32) = _
  rw [Ideal.ofBits_zero_f32]
  rfl

end Cert.KernelIdeal.TileRead

end
-- ==== Proof.LibParitySums.lean ====
/-
  Two rearrangements of finite sums in a commutative additive monoid (no subtraction, no finiteness: they hold on the
  extended reals as they stand).
-/
import Mathlib.Algebra.BigOperators.Fin
import Mathlib.Tactic.Abel
import Mathlib.Tactic.Ring

open scoped BigOperators

namespace Cert.Lib.ParitySums

/-- A sum over the first `2n+1` naturals is the sum of its `n+1` even-indexed terms plus the sum of its `n`
    odd-indexed terms: what two running totals fed alternately, then added, hold. -/
theorem sum_range_parity {M : Type*} [AddCommMonoid M] (f : ℕ → M) (n : ℕ) :
    ∑ i ∈ Finset.range (2 * n + 1), f i
      = ∑ m ∈ Finset.range (n + 1), f (2 * m) + ∑ m ∈ Finset.range n, f (2 * m + 1) := by
  induction n with
  | zero => simp
  | succ n ih =>
    rw [show 2 * (n + 1) + 1 = (2 * n + 1) + 1 + 1 by ring, Finset.sum_range_succ, Finset.sum_range_succ, ih,
      Finset.sum_range_succ (fun m => f (2 * m)) (n + 1), Finset.sum_range_succ (fun m => f (2 * m + 1)) n,
      show 2 * n + 1 + 1 = 2 * (n + 1) by ring]
    abel

/-- Summing over `Fin (n+1)` a function masked to zero at the last index is summing it over `Fin n`: a mask
    `index < n` applied once before a reduction stands for slicing the last entry off. -/
theorem sum_fin_masked_last {M : Type*} [AddCommMonoid M] (n : ℕ) (f : Fin (n + 1) → M) :
    ∑ i : Fin (n + 1), (if i.val < n then f i else 0) = ∑ i : Fin n, f i.castSucc := by
  rw [Fin.sum_univ_castSucc]
  simp

/-- A sum over `Finset.range n` as a sum over `Fin n`. -/
theorem sum_range_eq_fin {M : Type*} [AddCommMonoid M] (n : ℕ) (f : ℕ → M) :
    ∑ i ∈ Finset.range n, f i = ∑ i : Fin n, f i.val :=
  (Fin.sum_univ_eq_sum_range f n).symm

end Cert.Lib.ParitySums
-- ==== Proof.BlockValue.lean ====
/-
  What the body leaves in its output block, on the extended reals.

  The two running tiles, fed alternately for 127 steps and then added, hold at (j, k) the sum over all 127 steps of
  the step tiles there (a sum split by the parity of the step).  The mask keeps the entries with j < 127 and k < 127
  and the two lane sums add those up: masking the last row and the last column to zero before summing is summing over
  the first 127 rows and columns.  So the block's one entry is the sum over the 127³ interior points (i, j, k) of the
  three squared forward differences of the input block there, in which no cyclic wrap-around is ever read.
-/
import proofs.«109598_g5583457484972_feedfinal_621_21_alg».proof.Proof.TileRead
import proofs.«109598_g5583457484972_feedfinal_621_21_alg».proof.Proof.LibParitySums

set_option maxRecDepth 16384

noncomputable section

open scoped BigOperators

namespace Cert.KernelIdeal.BlockValue

open Idealize.ShloMosaic Idealize.ShloMosaic.ValueIdx Cert.KernelIdeal Cert.KernelIdeal.Gen Cert.KernelIdeal.Unrolled
  Cert.KernelIdeal.TileRead Cert.Lib.ParitySums

/-- A select on a decided bit is the `if`. -/
theorem select_ite {α : Type} (c : Prop) [Decidable c] (a b : α) :
    Scalar.select (if c then 1#1 else 0#1) a b = if c then a else b := by
  by_cases h : c
  · rw [if_pos h, if_pos h]; exact select_one a b
  · rw [if_neg h, if_neg h]; exact select_zero a b

/-- The sum over the block's interior of the step tiles: over rows j < 127, columns k < 127 and steps i < 127. -/
def interiorSum (X : Vec Ideal S1x128x128x128 .f32) : EReal :=
  ∑ j : Fin 127, ∑ k : Fin 127, ∑ i ∈ Finset.range 127, cell X i j.castSucc k.castSucc

theorem zero3 : (![0, 0, 0] : Fin 3 → Nat) = fun _ => 0 := funext fun a => by fin_cases a <;> rfl

/-- The sum of the two running tiles with the last even step added, at (j, k): all 127 steps' tiles there. -/
theorem tiles_apply (X : Vec Ideal S1x128x128x128 .f32) (j k : Fin 128) :
    accEven X 63 (ix2 j k) + sqDiffs (planeN X 126) (planeN X 127) (ix2 j k) + accOdd X 63 (ix2 j k)
      = ∑ i ∈ Finset.range 127, cell X i j k := by
  rw [accEven_apply, accOdd_apply]
  have h := sum_range_parity (fun i => cell X i j k) 63
  rw [Finset.sum_range_succ (fun m => cell X (2 * m) j k) 63] at h
  exact h.symm

/-- The output block's one entry is the interior sum of the input block. -/
theorem out_apply (X : Vec Ideal S1x128x128x128 .f32) (y : S1x1x1.Idx) : out0_1 X y = interiorSum X := by
  rw [out_eq, View.canon_unit_zero zero3, closing_apply]
  have inner : ∀ k j : Fin 128,
      Scalar.select (k0_pay2 (ix2 j k))
          (accEven X 63 (ix2 j k) + sqDiffs (planeN X 126) (planeN X 127) (ix2 j k) + accOdd X 63 (ix2 j k)) 0
        = if j.val < 127 then (if k.val < 127 then ∑ i ∈ Finset.range 127, cell X i j k else 0) else 0 := by
    intro k j
    rw [mask_apply, tiles_apply, select_ite, ite_and]
  calc ∑ k : Fin 128, ∑ j : Fin 128, Scalar.select (k0_pay2 (ix2 j k))
          (accEven X 63 (ix2 j k) + sqDiffs (planeN X 126) (planeN X 127) (ix2 j k) + accOdd X 63 (ix2 j k)) 0
      = ∑ k : Fin 128, ∑ j : Fin 128,
          (if j.val < 127 then (if k.val < 127 then ∑ i ∈ Finset.range 127, cell X i j k else 0) else 0) :=
        Finset.sum_congr rfl fun k _ => Finset.sum_congr rfl fun j _ => inner k j
    _ = ∑ k : Fin 128, ∑ j : Fin 127,
          (if k.val < 127 then ∑ i ∈ Finset.range 127, cell X i j.castSucc k else 0) :=
        Finset.sum_congr rfl fun k _ =>
          sum_fin_masked_last 127 (fun j => if k.val < 127 then ∑ i ∈ Finset.range 127, cell X i j k else 0)
    _ = ∑ j : Fin 127, ∑ k : Fin 128,
          (if k.val < 127 then ∑ i ∈ Finset.range 127, cell X i j.castSucc k else 0) := Finset.sum_comm
    _ = interiorSum X :=
        Finset.sum_congr rfl fun j _ =>
          sum_fin_masked_last 127 (fun k => ∑ i ∈ Finset.range 127, cell X i j.castSucc k)

/-- A step's tile at (j, k) in the block's entries: the squared forward differences along the loop axis, along the
    rows and along the columns (the last two cyclic). -/
theorem cell_eq (X : Vec Ideal S1x128x128x128 .f32) (n : ℕ) (j k : Fin 128) :
    cell X n j k
      = (X (ix4 (0 : Fin 1) (pos (n + 1)) j k) - X (ix4 (0 : Fin 1) (pos n) j k))
          * (X (ix4 (0 : Fin 1) (pos (n + 1)) j k) - X (ix4 (0 : Fin 1) (pos n) j k))
        + (X (ix4 (0 : Fin 1) (pos n) (j + 1) k) - X (ix4 (0 : Fin 1) (pos n) j k))
          * (X (ix4 (0 : Fin 1) (pos n) (j + 1) k) - X (ix4 (0 : Fin 1) (pos n) j k))
        + (X (ix4 (0 : Fin 1) (pos n) j (k + 1)) - X (ix4 (0 : Fin 1) (pos n) j k))
          * (X (ix4 (0 : Fin 1) (pos n) j (k + 1)) - X (ix4 (0 : Fin 1) (pos n) j k)) := by
  unfold cell
  rw [sqDiffs_apply]
  simp only [planeN_apply]

end Cert.KernelIdeal.BlockValue

end
-- ==== Proof.ArrayValue.lean ====
/-
  From the blocks to the output array, and through the host operations around the region.

  Grid point t (of 12) stages slab t of the [12,128,128,128] array — the input reshaped by the host before the
  region — and writes back entry (t,0,0) of the [12,1,1] array of partial sums; the 12 one-entry blocks tile that
  array, so after the region its entry (s,0,0) is the interior sum of slab s.  After the region the host adds the 12
  partial sums from zero and divides by 12.
-/
import proofs.«109598_g5583457484972_feedfinal_621_21_alg».proof.Proof.BlockValue
import Idealize.ShloMosaic.Lib.StableHlo.Run

set_option maxRecDepth 16384

noncomputable section

open scoped BigOperators

namespace Cert.KernelIdeal.ArrayValue

open Idealize.ShloMosaic Idealize.ShloMosaic.TcCoe Idealize.ShloMosaic.ValueIdx Idealize.SL.Sem
  Cert.KernelIdeal Cert.KernelIdeal.Gen Cert.KernelIdeal.TileRead Cert.KernelIdeal.BlockValue

variable (m : (ℓ : Loc nD τ sig) → Buf (Elt Ideal) ℓ) (ρ : Dev nD → PrngReg)

/-- Slab `s` of a [12,128,128,128] array, as a [1,128,128,128] block. -/
def slab (A : S12x128x128x128.Idx → EReal) (s : Fin 12) : Vec Ideal S1x128x128x128 .f32 :=
  fun y => A (ix4 s (y 1) (y 2) (y 3))

/-- The array of partial sums: entry (s,0,0) is the interior sum of slab s. -/
def partials (A : S12x128x128x128.Idx → EReal) : S12x1x1.Idx → EReal :=
  fun i => interiorSum (slab A (i 0))

/-- The printed index maps over the grid: point t stages slab t and writes back entry t. -/
theorem index_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem t_lt (t : Fin cfg0.N) : t.val < 12 := Nat.lt_of_lt_of_eq t.isLt (show cfg0.N = 12 from N_0)

/-- The input window's block at point t is slab t of the reshaped array. -/
theorem iblk_eq (c : Dev nD) (t : Fin cfg0.N) :
    iblk m c 0 t = slab (V m c main_v0) ⟨t.val, t_lt t⟩ := by
  obtain ⟨e0, e1, e2, e3, -, -, -⟩ := index_facts t
  funext y
  show V m c main_v0 (((cfg0.win 0).blk t).view.emb y) = V m c main_v0 (ix4 ⟨t.val, t_lt t⟩ (y 1) (y 2) (y 3))
  refine congrArg (V m c main_v0) (funext fun a => Fin.ext ?_)
  match a with
  | ⟨0, _⟩ =>
    show win0_0.index t (0 : Fin 4) * 1 + 1 * (y 0).val = t.val
    have h : (y 0).val < 1 := (y 0).isLt
    omega
  | ⟨1, _⟩ => show win0_0.index t (1 : Fin 4) * 128 + 1 * (y 1).val = (y 1).val; omega
  | ⟨2, _⟩ => show win0_0.index t (2 : Fin 4) * 128 + 1 * (y 2).val = (y 2).val; omega
  | ⟨3, _⟩ => show win0_0.index t (3 : Fin 4) * 128 + 1 * (y 3).val = (y 3).val; omega

/-- What point t writes back is block t of the array of partial sums. -/
theorem flushed_eq (c : Dev nD) (t : Fin cfg0.N) :
    (dats m 0 c).flushed 1 t = ((cfg0.win 1).blk t).view.read (Elt Ideal) (partials (V m c main_v0)) := by
  show (cfg0.win 1).cut (grid0.coords t) ((dats m 0 c).after 1 t) = _
  rw [after0_1]
  obtain ⟨-, -, -, -, e0, e1, e2⟩ := index_facts t
  funext y
  show out0_1 (iblk m c 0 t) y = partials (V m c main_v0) (((cfg0.win 1).blk t).view.emb y)
  rw [out_apply, iblk_eq]
  unfold partials
  refine congrArg (fun s => interiorSum (slab (V m c main_v0) s)) (Fin.ext ?_)
  show t.val = win0_1.index t (0 : Fin 3) * 1 + 1 * (y 0).val
  have h : (y 0).val < 1 := (y 0).isLt
  omega

/-- An index of the [12,1,1] array is in point t's block iff each coordinate is in the block's range on its axis. -/
theorem mem_blk (t : Fin cfg0.N) (i : S12x1x1.Idx) :
    i ∈ ((cfg0.win 1).blk t).view.set ↔ ∀ a : Fin 3, win0_1.index t a * S1x1x1.size a ≤ (i a).val
      ∧ (i a).val < win0_1.index t a * S1x1x1.size a + S1x1x1.size a := by
  show i ∈ ((View.whole main_v1).slice (win0_1.rect t)).set ↔ _
  rw [View.set_slice_whole, Rect.mem_set_unit]
  exact Iff.rfl

/-- Every entry of the [12,1,1] array is written back by the point its leading coordinate names. -/
theorem cover (i : S12x1x1.Idx) : ∃ t : Fin cfg0.N, (cfg0.win 1).flush t = true ∧ i ∈ ((cfg0.win 1).blk t).view.set := by
  have h0 : (i 0).val < 12 := (i 0).isLt
  have h1 : (i 1).val < 1 := (i 1).isLt
  have h2 : (i 2).val < 1 := (i 2).isLt
  let t : Fin cfg0.N := ⟨(i 0).val, Nat.lt_of_lt_of_eq h0 (show 12 = cfg0.N from N_0.symm)⟩
  obtain ⟨-, -, -, -, e0, e1, e2⟩ := index_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    have : t.val = (i 0).val := rfl
    omega
  | ⟨1, _⟩ => show win0_1.index t (1 : Fin 3) * 1 ≤ (i 1).val ∧ (i 1).val < win0_1.index t (1 : Fin 3) * 1 + 1; omega
  | ⟨2, _⟩ => show win0_1.index t (2 : Fin 3) * 1 ≤ (i 2).val ∧ (i 2).val < win0_1.index t (2 : Fin 3) * 1 + 1; omega

/-- The [12,1,1] array after the region: the partial sums of the reshaped input. -/
theorem final (c : Dev nD) : (dats m 0 c).arrAt 1 cfg0.N = partials (V m c main_v0) :=
  (dats m 0 c).arrAt_eq_of_cover 1 (partials (V m c main_v0)) (fun t _ => flushed_eq m c t) (cover)

/-- The array the region reads: the host's reshape of the argument. -/
theorem V_main_v0 (c : Dev nD) :
    (V m c main_v0 : S12x128x128x128.Idx → EReal)
      = shapeCast S12x128x128x128 (m ((c : Thread nD τ).loc main_arg0)) shapeCasts_S4x3x128x128x128_S12x128x128x128 := by
  show StableHlo.after hostOps0 (fun b => m (c, b)) (Proc.devRef .tc main_v0) = _
  after_results
  rfl

end Cert.KernelIdeal.ArrayValue

end
-- ==== Proof.KernelRun.lean ====
/-
  The idealized kernel's run with its result named: after the region the host sums the 12 partial sums from zero and
  divides by 12, so the result is (0 + the sum over the [12,1,1] array of the slabs' interior sums) / 12.
-/
import proofs.«109598_g5583457484972_feedfinal_621_21_alg».proof.Proof.ArrayValue

set_option maxRecDepth 16384

noncomputable section

open scoped BigOperators

namespace Cert.KernelIdeal.KernelRun

open Idealize.ShloMosaic Idealize.ShloMosaic.TcCoe Idealize.ShloMosaic.ValueIdx Idealize.SL.Sem
  Cert.KernelIdeal Cert.KernelIdeal.Gen Cert.KernelIdeal.ArrayValue

/-- The kernel program's result as a function of its argument array. -/
def result (A : S4x3x128x128x128.Idx → EReal) : S_.Idx → EReal :=
  Host.divf (F := Ideal)
    (Host.reduceAdd (F := Ideal) (partials (shapeCast S12x128x128x128 A shapeCasts_S4x3x128x128x128_S12x128x128x128))
      (constant (F := Ideal) S_ .f32 0x00000000#32) reducesTo_S12x1x1_S_d0_1_2 h_S_)
    (constant (F := Ideal) S_ .f32 0x41400000#32)

variable (m : (ℓ : Loc nD τ sig) → Buf (Elt Ideal) ℓ) (ρ : Dev nD → PrngReg)

/-- What the host operations after the region leave in the result buffer. -/
theorem tail_eq (c : Dev nD) :
    Pipeline.afterTail₀ cfgs (dats m) 0 (V0 m) [hostOps1] c main_v3 = result (m ((c : Thread nD τ).loc main_arg0)) := by
  unfold Pipeline.afterTail₀
  show StableHlo.after hostOps1 _ (Proc.devRef .tc main_v3) = _
  after_results
  rw [(Pipeline.withArrays_arr spec0 launch0.win.arr_inj c _ _ 1).trans (final m c), V_main_v0]
  rfl

/-- Every weakly fair execution of the idealized kernel ends with the result buffer at `result` of the argument
    and the argument unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0))
      ∧ r.2.mem ((c : Thread nD τ).loc main_arg0) = m ((c : Thread nD τ).loc main_arg0) :=
  (θ_run defs _ _).mono (fun r h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c)⟩)
    (run_main m ρ)

/-- The result's one entry: zero plus the sum of the partial sums, divided by 12. -/
theorem result_apply (A : S4x3x128x128x128.Idx → EReal) (i : S_.Idx) :
    result A i = Ideal.div
      (0 + ∑ t : S12x1x1.Idx, partials (shapeCast S12x128x128x128 A shapeCasts_S4x3x128x128x128_S12x128x128x128) t)
      (Ideal.ofBits .f32 0x41400000#32) := by
  unfold result
  show Ideal.div (Host.reduceAdd (F := Ideal) _ _ reducesTo_S12x1x1_S_d0_1_2 h_S_ i) _ = _
  congr 1
  generalize partials _ = y0
  simp only [Host.reduceAdd, Ideal.hostReduceAdd_def]
  rw [Ideal.hostReduceAdd_total reducesTo_S12x1x1_S_d0_1_2 (fun b => b.elim0) y0 _ i]
  congr 1
  exact Ideal.ofBits_zero_f32

end Cert.KernelIdeal.KernelRun

end
-- ==== Proof.RefRead.lean ====
/-
  The idealized reference's result read as one sum.

  The reference slices the interior [4,3,127,127,127] box and its three forward neighbours out of the input, squares
  the three differences, sums each over the box from zero, adds the three sums and divides by 12.  Zero is the unit
  and finite sums distribute over +, so the numerator is the sum over the box of the three squared forward
  differences at each point.
-/
import proofs.«109598_g5583457484972_feedfinal_621_21_alg».proof.Proof.Gen.ReferenceIdeal.Read
import Idealize.ShloMosaic.Lib.ValueIdx

noncomputable section

open scoped BigOperators

namespace Cert.ReferenceIdeal.RefRead

open Idealize.ShloMosaic Idealize.ShloMosaic.ValueIdx Cert.ReferenceIdeal Cert.ReferenceIdeal.Gen Cert.ReferenceIdeal.Read

/-- The three squared forward differences of the array at a point of the interior box. -/
def pointTerm (A : S4x3x128x128x128.Idx → EReal) (J : S4x3x127x127x127.Idx) : EReal :=
  (A (idx_main_v1 J) - A (idx_main_v0 J)) * (A (idx_main_v1 J) - A (idx_main_v0 J))
    + (A (idx_main_v3 J) - A (idx_main_v0 J)) * (A (idx_main_v3 J) - A (idx_main_v0 J))
    + (A (idx_main_v5 J) - A (idx_main_v0 J)) * (A (idx_main_v5 J) - A (idx_main_v0 J))

/-- The reference's result: the sum of the point terms over the box, divided by 12. -/
theorem ref_apply (A : S4x3x128x128x128.Idx → EReal) (i : S_.Idx) :
    val_main_v15 (F := Ideal) A i = Ideal.div (∑ J, pointTerm A J) (Ideal.ofBits .f32 0x41400000#32) := by
  rw [val_main_v15_apply, val_main_v14_apply, val_main_v11_apply, val_main_v8_apply, val_main_v10_apply,
    val_main_v13_apply, val_main_cst_apply, val_main_cst_0_apply, val_main_cst_1_apply, val_main_cst_2_apply]
  simp only [Ideal.hostDivf_def, Ideal.addf_def, Ideal.ofBits_def, Ideal.ofBits_zero_f32, zero_add]
  rw [← Finset.sum_add_distrib, ← Finset.sum_add_distrib]
  congr 1
  refine Finset.sum_congr rfl fun J _ => ?_
  rw [val_main_v7_apply, val_main_v9_apply, val_main_v12_apply, val_main_v2_apply, val_main_v4_apply,
    val_main_v6_apply, val_main_v0_apply, val_main_v1_apply, val_main_v3_apply, val_main_v5_apply]
  rfl

end Cert.ReferenceIdeal.RefRead

end
-- ==== Proof.LibIdxSums.lean ====
/-
  Sums over index sets given by coordinates, in a commutative additive monoid: a rank-5 index set as five nested
  coordinate sums; a column shape [n,1,1] as a sum over its leading coordinate; and a range of a·b values as a
  double sum over its quotient and remainder by b.
-/
import Idealize.ShloMosaic.Lib.ValueIdx
import Mathlib.Logic.Equiv.Fin.Basic

noncomputable section

open scoped BigOperators

namespace Cert.Lib.IdxSums

open Idealize.ShloMosaic Idealize.ShloMosaic.ValueIdx

/-- A rank-5 index set is the product of its five coordinate ranges … -/
def idxEquiv5 {n0 n1 n2 n3 n4 : ℕ} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : ℕ}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- The column shape [n,1,1] is indexed by its leading coordinate … -/
def idxEquivCol {n : ℕ} : (⟨3, ![n, 1, 1]⟩ : Shape).Idx ≃ Fin n where
  toFun i := i 0
  invFun s := ix3 s (0 : Fin 1) (0 : Fin 1)
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- … so a sum over it of a function of the leading coordinate is the sum over that coordinate. -/
theorem sum_idxCol {M : Type*} [AddCommMonoid M] {n : ℕ} (g : Fin n → M) :
    ∑ i : (⟨3, ![n, 1, 1]⟩ : Shape).Idx, g (i 0) = ∑ s : Fin n, g s :=
  Equiv.sum_comp (idxEquivCol (n := n)) g

/-- A sum over `a·b` values is the double sum over quotient `p < a` and remainder `q < b`, the value `q + b·p`. -/
theorem sum_fin_mul {M : Type*} [AddCommMonoid M] (a b : ℕ) (f : Fin (a * b) → M) :
    ∑ s, f s = ∑ p : Fin a, ∑ q : Fin b, f (finProdFinEquiv (p, q)) := by
  rw [← Equiv.sum_comp finProdFinEquiv f, Fintype.sum_prod_type]

end Cert.Lib.IdxSums

end
-- ==== Proof.InteriorLaw.lean ====
/-
  The two results are one function of the argument.

  Slab s = 3b + c of the reshaped array is the [128,128,128] cube (b, c) of the input, so a step tile of slab s at an
  interior point (i, j, k) is the reference's point term at (b, c, i, j, k): on the interior the cyclic y and z
  neighbours are the true ones.  Summing over the slabs, then rows, columns and steps, is summing over the box
  [4,3,127,127,127] in another order — a re-indexing of a finite sum in a commutative monoid, which needs no
  finiteness of the entries.
-/
import proofs.«109598_g5583457484972_feedfinal_621_21_alg».proof.Proof.KernelRun
import proofs.«109598_g5583457484972_feedfinal_621_21_alg».proof.Proof.RefRead
import proofs.«109598_g5583457484972_feedfinal_621_21_alg».proof.Proof.LibIdxSums

set_option maxRecDepth 16384

noncomputable section

open scoped BigOperators

namespace Cert.Proof.InteriorLaw

open Idealize.ShloMosaic Idealize.ShloMosaic.ValueIdx Cert.Lib.IdxSums Cert.Lib.ParitySums
  Cert.KernelIdeal.TileRead Cert.KernelIdeal.BlockValue Cert.KernelIdeal.ArrayValue
  Cert.ReferenceIdeal.Read Cert.ReferenceIdeal.RefRead

/-- The input array: both programs' argument type. -/
abbrev Arr : Type := (⟨5, ![4, 3, 128, 128, 128]⟩ : Shape).Idx → EReal

/-- The input as the kernel's region reads it: reshaped to 12 slabs. -/
abbrev slabs (A : Arr) : Cert.KernelIdeal.S12x128x128x128.Idx → EReal :=
  shapeCast Cert.KernelIdeal.S12x128x128x128 A Cert.KernelIdeal.Gen.shapeCasts_S4x3x128x128x128_S12x128x128x128

/-- Entry (3b + c, p, q, r) of the reshaped array is entry (b, c, p, q, r) of the input. -/
theorem slabs_apply (A : Arr) (b : Fin 4) (c : Fin 3) (p q r : Fin 128) :
    slabs A (ix4 (finProdFinEquiv (b, c) : Fin 12) p q r) = A (ix5 b c p q r) := by
  refine shapeCast_apply _ _ _ (ix5 b c p q r) ?_
  rw [Shape.rowMajor_val_five, Shape.rowMajor_val_four]
  show (((b.val * 3 + c.val) * 128 + p.val) * 128 + q.val) * 128 + r.val
    = (((c.val + 3 * b.val) * 128 + p.val) * 128 + q.val) * 128 + r.val
  omega

section Indices
variable (b : Fin 4) (c : Fin 3) (i j k : Fin 127)

/-- The box point itself, in the input. -/
theorem idx_self : idx_main_v0 (ix5 b c i j k) = ix5 b c (pos i.val) j.castSucc k.castSucc :=
  funext fun a => match a with
    | ⟨0, _⟩ => rfl
    | ⟨1, _⟩ => rfl
    | ⟨2, _⟩ => Fin.ext (by have := i.isLt; show i.val = i.val % 128; omega)
    | ⟨3, _⟩ => rfl
    | ⟨4, _⟩ => rfl

/-- Its neighbour along the loop axis. -/
theorem idx_next : idx_main_v1 (ix5 b c i j k) = ix5 b c (pos (i.val + 1)) j.castSucc k.castSucc :=
  funext fun a => match a with
    | ⟨0, _⟩ => rfl
    | ⟨1, _⟩ => rfl
    | ⟨2, _⟩ => Fin.ext (by have := i.isLt; show 1 + i.val = (i.val + 1) % 128; omega)
    | ⟨3, _⟩ => rfl
    | ⟨4, _⟩ => rfl

/-- Its neighbour along the rows: inside the box the cyclic successor is the true one. -/
theorem idx_row : idx_main_v3 (ix5 b c i j k) = ix5 b c (pos i.val) (j.castSucc + 1) k.castSucc :=
  funext fun a => match a with
    | ⟨0, _⟩ => rfl
    | ⟨1, _⟩ => rfl
    | ⟨2, _⟩ => Fin.ext (by have := i.isLt; show i.val = i.val % 128; omega)
    | ⟨3, _⟩ => Fin.ext (by
        have := j.isLt
        show 1 + j.val = (j.castSucc + 1 : Fin 128).val
        rw [Fin.val_add]; show 1 + j.val = (j.val + 1 % 128) % 128; omega)
    | ⟨4, _⟩ => rfl

/-- Its neighbour along the columns. -/
theorem idx_col : idx_main_v5 (ix5 b c i j k) = ix5 b c (pos i.val) j.castSucc (k.castSucc + 1) :=
  funext fun a => match a with
    | ⟨0, _⟩ => rfl
    | ⟨1, _⟩ => rfl
    | ⟨2, _⟩ => Fin.ext (by have := i.isLt; show i.val = i.val % 128; omega)
    | ⟨3, _⟩ => rfl
    | ⟨4, _⟩ => Fin.ext (by
        have := k.isLt
        show 1 + k.val = (k.castSucc + 1 : Fin 128).val
        rw [Fin.val_add]; show 1 + k.val = (k.val + 1 % 128) % 128; omega)

end Indices

/-- A step tile of slab 3b + c at an interior point is the reference's point term there. -/
theorem cell_eq_pointTerm (A : Arr) (b : Fin 4) (c : Fin 3) (i j k : Fin 127) :
    cell (slab (slabs A) (finProdFinEquiv (b, c))) i.val j.castSucc k.castSucc = pointTerm A (ix5 b c i j k) := by
  rw [cell_eq]
  unfold pointTerm
  rw [idx_self, idx_next, idx_row, idx_col]
  show (slabs A (ix4 (finProdFinEquiv (b, c) : Fin 12) (pos (i.val + 1)) j.castSucc k.castSucc)
        - slabs A (ix4 (finProdFinEquiv (b, c) : Fin 12) (pos i.val) j.castSucc k.castSucc))
      * (slabs A (ix4 (finProdFinEquiv (b, c) : Fin 12) (pos (i.val + 1)) j.castSucc k.castSucc)
        - slabs A (ix4 (finProdFinEquiv (b, c) : Fin 12) (pos i.val) j.castSucc k.castSucc))
    + (slabs A (ix4 (finProdFinEquiv (b, c) : Fin 12) (pos i.val) (j.castSucc + 1) k.castSucc)
        - slabs A (ix4 (finProdFinEquiv (b, c) : Fin 12) (pos i.val) j.castSucc k.castSucc))
      * (slabs A (ix4 (finProdFinEquiv (b, c) : Fin 12) (pos i.val) (j.castSucc + 1) k.castSucc)
        - slabs A (ix4 (finProdFinEquiv (b, c) : Fin 12) (pos i.val) j.castSucc k.castSucc))
    + (slabs A (ix4 (finProdFinEquiv (b, c) : Fin 12) (pos i.val) j.castSucc (k.castSucc + 1))
        - slabs A (ix4 (finProdFinEquiv (b, c) : Fin 12) (pos i.val) j.castSucc k.castSucc))
      * (slabs A (ix4 (finProdFinEquiv (b, c) : Fin 12) (pos i.val) j.castSucc (k.castSucc + 1))
        - slabs A (ix4 (finProdFinEquiv (b, c) : Fin 12) (pos i.val) j.castSucc k.castSucc)) = _
  simp only [slabs_apply]

/-- The interior sum of slab 3b + c is the sum of the point terms over the cube (b, c) of the box. -/
theorem interiorSum_slab (A : Arr) (b : Fin 4) (c : Fin 3) :
    interiorSum (slab (slabs A) (finProdFinEquiv (b, c)))
      = ∑ i : Fin 127, ∑ j : Fin 127, ∑ k : Fin 127, pointTerm A (ix5 b c i j k) := by
  unfold interiorSum
  calc ∑ j : Fin 127, ∑ k : Fin 127, ∑ i ∈ Finset.range 127,
          cell (slab (slabs A) (finProdFinEquiv (b, c))) i j.castSucc k.castSucc
      = ∑ j : Fin 127, ∑ k : Fin 127, ∑ i : Fin 127, pointTerm A (ix5 b c i j k) :=
        Finset.sum_congr rfl fun j _ => Finset.sum_congr rfl fun k _ => by
          rw [sum_range_eq_fin]
          exact Finset.sum_congr rfl fun i _ => cell_eq_pointTerm A b c i j k
    _ = ∑ j : Fin 127, ∑ i : Fin 127, ∑ k : Fin 127, pointTerm A (ix5 b c i j k) :=
        Finset.sum_congr rfl fun j _ => Finset.sum_comm
    _ = ∑ i : Fin 127, ∑ j : Fin 127, ∑ k : Fin 127, pointTerm A (ix5 b c i j k) := Finset.sum_comm

/-- The sum of the 12 partial sums is the sum of the point terms over the whole box. -/
theorem total_eq (A : Arr) : ∑ t : Cert.KernelIdeal.S12x1x1.Idx, partials (slabs A) t = ∑ J, pointTerm A J := by
  calc ∑ t : Cert.KernelIdeal.S12x1x1.Idx, partials (slabs A) t
      = ∑ s : Fin 12, interiorSum (slab (slabs A) s) := sum_idxCol (fun s : Fin 12 => interiorSum (slab (slabs A) s))
    _ = ∑ b : Fin 4, ∑ c : Fin 3, interiorSum (slab (slabs A) (finProdFinEquiv (b, c))) :=
        sum_fin_mul 4 3 (fun s => interiorSum (slab (slabs A) s))
    _ = ∑ b : Fin 4, ∑ c : Fin 3, ∑ i : Fin 127, ∑ j : Fin 127, ∑ k : Fin 127, pointTerm A (ix5 b c i j k) :=
        Finset.sum_congr rfl fun b _ => Finset.sum_congr rfl fun c _ => interiorSum_slab A b c
    _ = ∑ J, pointTerm A J := (sum_idx5 (pointTerm A)).symm

/-- The kernel program's result is the reference program's, entry by entry, for every input. -/
theorem result_eq (A : Arr) : Cert.KernelIdeal.KernelRun.result A = val_main_v15 (F := Ideal) A := by
  funext i
  rw [Cert.KernelIdeal.KernelRun.result_apply, ref_apply, zero_add]
  exact congrArg (fun x => Ideal.div x _) (total_eq A)

end Cert.Proof.InteriorLaw

end
-- ==== Proof.lean ====
/- The claim: a sum-of-squared-forward-differences loss computed slab by slab in a kernel equals its plain
   array-slicing reference, as extended reals, for every input.

   The kernel reshapes the [4,3,128,128,128] input to 12 slabs of [128,128,128].  For each slab it walks the 127
   steps of the leading axis; at step i it adds, over the whole 128×128 tile, the squared differences to the next
   plane, to the next row and to the next column (the last two by cyclic rotations), alternately into two running
   tiles; it adds the two tiles, masks row 127 and column 127 to zero, and sums the tile.  The host adds the 12 partial
   sums and divides by 12.  The reference slices the interior [4,3,127,127,127] box and its three forward
   neighbours, sums the three squared differences over the box, adds the three sums and divides by 12.

   Proof: the 127 written-out steps are the unrolling of a recursion (Proof/UnrolledBody.lean); read at an index the
   running tiles are finite sums of step tiles (Proof/TileRead.lean); the parity split and the mask turn the block's
   entry into the sum over the slab's 127³ interior points, where no cyclic wrap is read (Proof/BlockValue.lean);
   the 12 one-entry blocks tile the array of partial sums, and the host operations around the region are read
   (Proof/ArrayValue.lean, Proof/KernelRun.lean); the reference's three sums are one sum of point terms
   (Proof/RefRead.lean); and the two totals are the same finite sum re-indexed, 12 = 4·3 (Proof/InteriorLaw.lean).
   Only commutativity and associativity of + on the extended reals are used, so the finiteness of the input is
   never needed.  The three frame claims are the generated frames; no operation was rewritten by idealization. -/
import proofs.«109598_g5583457484972_feedfinal_621_21_alg».proof.Defs
import proofs.«109598_g5583457484972_feedfinal_621_21_alg».proof.Proof.Gen.Kernel
import proofs.«109598_g5583457484972_feedfinal_621_21_alg».proof.Proof.Gen.Kernel.Skeleton
import proofs.«109598_g5583457484972_feedfinal_621_21_alg».proof.Proof.Gen.Kernel.Launch
import proofs.«109598_g5583457484972_feedfinal_621_21_alg».proof.Proof.Gen.Kernel.Points
import proofs.«109598_g5583457484972_feedfinal_621_21_alg».proof.Proof.Gen.Kernel.Frame
import proofs.«109598_g5583457484972_feedfinal_621_21_alg».proof.Proof.Gen.KernelIdeal
import proofs.«109598_g5583457484972_feedfinal_621_21_alg».proof.Proof.Gen.KernelIdeal.Skeleton
import proofs.«109598_g5583457484972_feedfinal_621_21_alg».proof.Proof.Gen.KernelIdeal.Launch
import proofs.«109598_g5583457484972_feedfinal_621_21_alg».proof.Proof.Gen.KernelIdeal.Points
import proofs.«109598_g5583457484972_feedfinal_621_21_alg».proof.Proof.Gen.KernelIdeal.Frame
import proofs.«109598_g5583457484972_feedfinal_621_21_alg».proof.Proof.Gen.ReferenceIdeal
import proofs.«109598_g5583457484972_feedfinal_621_21_alg».proof.Proof.Gen.Pre_finite_inputs
import proofs.«109598_g5583457484972_feedfinal_621_21_alg».proof.Proof.Gen.ReferenceIdeal.Run
import proofs.«109598_g5583457484972_feedfinal_621_21_alg».proof.Proof.Gen.ReferenceIdeal.Read
import proofs.«109598_g5583457484972_feedfinal_621_21_alg».proof.Proof.InteriorLaw
import Idealize.ShloMosaic.Adequacy
import Idealize.ShloMosaic.Init

noncomputable section

namespace Cert.Proof

open Idealize.ShloMosaic Idealize.SL.Sem

/-- The word-level kernel runs and keeps its argument. -/
theorem frame_kernel : Cert.frame_Kernel := fun m ρ _ => Cert.Kernel.Gen.frame m ρ

/-- The idealized kernel runs and keeps its argument. -/
theorem frame_kernelIdeal : Cert.frame_KernelIdeal := fun m ρ _ => Cert.KernelIdeal.Gen.frame m ρ

/-- The idealized reference runs and keeps its argument: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealization rewrote no operation. -/
theorem preserves : Cert.preserves_Kernel_KernelIdeal := trivial

/-- From memories agreeing on the argument both idealized programs end with the same result: the kernel's run ends
    at its result function of the argument, the reference's at its own, and the two are one function. -/
theorem algebraic : Cert.algebraic_KernelIdeal_ReferenceIdeal := by
  intro m ρ m' ρ' _ hagree
  refine ⟨fun c => Cert.KernelIdeal.KernelRun.result
      (m ((c.tc : Thread Cert.KernelIdeal.nD Cert.KernelIdeal.τ).loc Cert.KernelIdeal.main_arg0)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  exact (Cert.Proof.InteriorLaw.result_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
